-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v14) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x4096x768 : Shape := ⟨3, ![8, 4096, 768]⟩
abbrev S8 : Shape := ⟨1, ![8]⟩
abbrev S3072x8 : Shape := ⟨2, ![3072, 8]⟩
abbrev S3072 : Shape := ⟨1, ![3072]⟩
abbrev S768x3072 : Shape := ⟨2, ![768, 3072]⟩
abbrev S768 : Shape := ⟨1, ![768]⟩
abbrev S_ : Shape := ⟨0, ![]⟩

class Facts : Prop where
  bcast_S_S8x4096x768 : S_.BroadcastsInDim S8x4096x768 (![] : Fin 0 → Fin S8x4096x768.rank)
  reducesTo_S8x4096x768_S_d0_1_2 : S8x4096x768.ReducesTo [0, 1, 2] S_
  h_S_ : 0 < S_.numel
  bcast_S_S8 : S_.BroadcastsInDim S8 (![] : Fin 0 → Fin S8.rank)
  reducesTo_S8_S_d0 : S8.ReducesTo [0] S_
  bcast_S_S3072x8 : S_.BroadcastsInDim S3072x8 (![] : Fin 0 → Fin S3072x8.rank)
  reducesTo_S3072x8_S_d0_1 : S3072x8.ReducesTo [0, 1] S_
  bcast_S_S3072 : S_.BroadcastsInDim S3072 (![] : Fin 0 → Fin S3072.rank)
  reducesTo_S3072_S_d0 : S3072.ReducesTo [0] S_
  bcast_S_S768x3072 : S_.BroadcastsInDim S768x3072 (![] : Fin 0 → Fin S768x3072.rank)
  reducesTo_S768x3072_S_d0_1 : S768x3072.ReducesTo [0, 1] S_
  bcast_S_S768 : S_.BroadcastsInDim S768 (![] : Fin 0 → Fin S768.rank)
  reducesTo_S768_S_d0 : S768.ReducesTo [0] S_

variable [Facts]

def fn_part1 {F : FTy → Type} [FloatOps F] (main_arg4 : FVec F S768x3072 .f32) (main_arg5 : FVec F S768 .f32) (main_v13 : IVec S_ 1) (main_v16 : IVec S3072 1) : IVec S_ 1 :=
  let main_c_5 : IVec S_ 1 := constantI S_ 1 1#1
  let main_v17 : IVec S_ 1 := (fun x v => Host.reduce IntOp.andi x v reducesTo_S3072_S_d0 h_S_) main_v16 main_c_5
  let main_v18 : IVec S_ 1 := andi main_v13 main_v17
  let main_v19 : FVec F S768x3072 .f32 := Host.absf main_arg4
  let main_cst_6 : FVec F S_ .f32 := constant S_ .f32 0x7F800000#32
  let main_v20 : FVec F S768x3072 .f32 := broadcastInDim S768x3072 ![] bcast_S_S768x3072 main_cst_6
  let main_v21 : IVec S768x3072 1 := cmpf .olt main_v19 main_v20
  let main_c_7 : IVec S_ 1 := constantI S_ 1 1#1
  let main_v22 : IVec S_ 1 := (fun x v => Host.reduce IntOp.andi x v reducesTo_S768x3072_S_d0_1 h_S_) main_v21 main_c_7
  let main_v23 : IVec S_ 1 := andi main_v18 main_v22
  let main_v24 : FVec F S768 .f32 := Host.absf main_arg5
  let main_cst_8 : FVec F S_ .f32 := constant S_ .f32 0x7F800000#32
  let main_v25 : FVec F S768 .f32 := broadcastInDim S768 ![] bcast_S_S768 main_cst_8
  let main_v26 : IVec S768 1 := cmpf .olt main_v24 main_v25
  let main_c_9 : IVec S_ 1 := constantI S_ 1 1#1
  let main_v27 : IVec S_ 1 := (fun x v => Host.reduce IntOp.andi x v reducesTo_S768_S_d0 h_S_) main_v26 main_c_9
  let main_v28 : IVec S_ 1 := andi main_v23 main_v27
  main_v28

def fn {F : FTy → Type} [FloatOps F] (main_arg0 : FVec F S8x4096x768 .f32) (main_arg1 : FVec F S8 .f32) (main_arg2 : FVec F S3072x8 .f32) (main_arg3 : FVec F S3072 .f32) (main_arg4 : FVec F S768x3072 .f32) (main_arg5 : FVec F S768 .f32) : IVec S_ 1 :=
  let main_v0 : FVec F S8x4096x768 .f32 := Host.absf main_arg0
  let main_cst : FVec F S_ .f32 := constant S_ .f32 0x7F800000#32
  let main_v1 : FVec F S8x4096x768 .f32 := broadcastInDim S8x4096x768 ![] bcast_S_S8x4096x768 main_cst
  let main_v2 : IVec S8x4096x768 1 := cmpf .olt main_v0 main_v1
  let main_c : IVec S_ 1 := constantI S_ 1 1#1
  let main_v3 : IVec S_ 1 := (fun x v => Host.reduce IntOp.andi x v reducesTo_S8x4096x768_S_d0_1_2 h_S_) main_v2 main_c
  let main_v4 : FVec F S8 .f32 := Host.absf main_arg1
  let main_cst_0 : FVec F S_ .f32 := constant S_ .f32 0x7F800000#32
  let main_v5 : FVec F S8 .f32 := broadcastInDim S8 ![] bcast_S_S8 main_cst_0
  let main_v6 : IVec S8 1 := cmpf .olt main_v4 main_v5
  let main_c_1 : IVec S_ 1 := constantI S_ 1 1#1
  let main_v7 : IVec S_ 1 := (fun x v => Host.reduce IntOp.andi x v reducesTo_S8_S_d0 h_S_) main_v6 main_c_1
  let main_v8 : IVec S_ 1 := andi main_v3 main_v7
  let main_v9 : FVec F S3072x8 .f32 := Host.absf main_arg2
  let main_cst_2 : FVec F S_ .f32 := constant S_ .f32 0x7F800000#32
  let main_v10 : FVec F S3072x8 .f32 := broadcastInDim S3072x8 ![] bcast_S_S3072x8 main_cst_2
  let main_v11 : IVec S3072x8 1 := cmpf .olt main_v9 main_v10
  let main_c_3 : IVec S_ 1 := constantI S_ 1 1#1
  let main_v12 : IVec S_ 1 := (fun x v => Host.reduce IntOp.andi x v reducesTo_S3072x8_S_d0_1 h_S_) main_v11 main_c_3
  let main_v13 : IVec S_ 1 := andi main_v8 main_v12
  let main_v14 : FVec F S3072 .f32 := Host.absf main_arg3
  let main_cst_4 : FVec F S_ .f32 := constant S_ .f32 0x7F800000#32
  let main_v15 : FVec F S3072 .f32 := broadcastInDim S3072 ![] bcast_S_S3072 main_cst_4
  let main_v16 : IVec S3072 1 := cmpf .olt main_v14 main_v15
  fn_part1 (F := F) main_arg4 main_arg5 main_v13 main_v16
-- ==== Kernel.lean ====
abbrev S8x4096x768 : Shape := ⟨3, ![8, 4096, 768]⟩
abbrev S8 : Shape := ⟨1, ![8]⟩
abbrev S3072x8 : Shape := ⟨2, ![3072, 8]⟩
abbrev S3072 : Shape := ⟨1, ![3072]⟩
abbrev S768x3072 : Shape := ⟨2, ![768, 3072]⟩
abbrev S768 : Shape := ⟨1, ![768]⟩
abbrev S32768x768 : Shape := ⟨2, ![32768, 768]⟩
abbrev S1x8 : Shape := ⟨2, ![1, 8]⟩
abbrev S3072x768 : Shape := ⟨2, ![3072, 768]⟩
abbrev S1024x128 : Shape := ⟨2, ![1024, 128]⟩
abbrev S1024x768 : Shape := ⟨2, ![1024, 768]⟩
abbrev S1024x8 : Shape := ⟨2, ![1024, 8]⟩
abbrev S1024x3072 : Shape := ⟨2, ![1024, 3072]⟩
abbrev S1x3072 : Shape := ⟨2, ![1, 3072]⟩
abbrev S1x768 : Shape := ⟨2, ![1, 768]⟩

abbrev nBuf : Space → Nat
  | .hbm => 16
  | .vmem => 8
  | .smem => 0
  | _ => 0

abbrev bufTy : (tb : Table) → Fin (tcTables nBuf tb) → BufTy
  | .hbm, ⟨0, _⟩ => ⟨S8x4096x768, .f32⟩
  | .hbm, ⟨1, _⟩ => ⟨S8, .f32⟩
  | .hbm, ⟨2, _⟩ => ⟨S3072x8, .f32⟩
  | .hbm, ⟨3, _⟩ => ⟨S3072, .f32⟩
  | .hbm, ⟨4, _⟩ => ⟨S768x3072, .f32⟩
  | .hbm, ⟨5, _⟩ => ⟨S768, .f32⟩
  | .hbm, ⟨6, _⟩ => ⟨S32768x768, .f32⟩
  | .hbm, ⟨7, _⟩ => ⟨S8, .f32⟩
  | .hbm, ⟨8, _⟩ => ⟨S1x8, .f32⟩
  | .hbm, ⟨9, _⟩ => ⟨S3072x8, .f32⟩
  | .hbm, ⟨10, _⟩ => ⟨S3072x8, .f32⟩
  | .hbm, ⟨11, _⟩ => ⟨S3072x8, .bf16⟩
  | .hbm, ⟨12, _⟩ => ⟨S3072x768, .f32⟩
  | .hbm, ⟨13, _⟩ => ⟨S3072x768, .bf16⟩
  | .hbm, ⟨14, _⟩ => ⟨S32768x768, .f32⟩
  | .hbm, ⟨15, _⟩ => ⟨S8x4096x768, .f32⟩
  | .local _ .vmem, ⟨0, _⟩ => ⟨S1024x128, .f32⟩
  | .local _ .vmem, ⟨1, _⟩ => ⟨S1024x128, .f32⟩
  | .local _ .vmem, ⟨2, _⟩ => ⟨S3072x8, .bf16⟩
  | .local _ .vmem, ⟨3, _⟩ => ⟨S3072, .f32⟩
  | .local _ .vmem, ⟨4, _⟩ => ⟨S3072x768, .bf16⟩
  | .local _ .vmem, ⟨5, _⟩ => ⟨S768, .f32⟩
  | .local _ .vmem, ⟨6, _⟩ => ⟨S1024x768, .f32⟩
  | .local _ .vmem, ⟨7, _⟩ => ⟨S1024x768, .f32⟩
  | _, _ => ⟨S8x4096x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S3072x8 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S3072 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S3072x768 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S768 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1024x768 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  shapeCasts_S8x4096x768_S32768x768 : S8x4096x768.ShapeCasts S32768x768
  bcast_S8_S1x8_1 : S8.BroadcastsInDim S1x8 (![1] : Fin 1 → Fin S1x8.rank)
  bcast_S1x8_S3072x8_0_1 : S1x8.BroadcastsInDim S3072x8 (![0, 1] : Fin 2 → Fin S3072x8.rank)
  bitsLt_bf16_f32 : FTy.bits .bf16 < FTy.bits .f32
  transposes_S768x3072_S3072x768_1_0 : S768x3072.Transposes [1, 0] S3072x768
  inb_S1024x128_S1024x8_0_0 : ∀ a, (![0, 0] : Fin 2 → Nat) a + S1024x8.size a ≤ S1024x128.size a
  h_S1024x8 : 0 < S1024x8.numel
  shapeCasts_S1024x8_S1024x8 : S1024x8.ShapeCasts S1024x8
  inb_S3072x8_S3072x8_0_0 : ∀ a, (![0, 0] : Fin 2 → Nat) a + S3072x8.size a ≤ S3072x8.size a
  h_S3072x8 : 0 < S3072x8.numel
  shapeCasts_S3072x8_S3072x8 : S3072x8.ShapeCasts S3072x8
  inb_S3072_S3072_0 : ∀ a, (![0] : Fin 1 → Nat) a + S3072.size a ≤ S3072.size a
  h_S3072 : 0 < S3072.numel
  shapeCasts_S3072_S1x3072 : S3072.ShapeCasts S1x3072
  broadcasts_S1x3072_S1024x3072 : S1x3072.Broadcasts S1024x3072
  inb_S3072x768_S3072x768_0_0 : ∀ a, (![0, 0] : Fin 2 → Nat) a + S3072x768.size a ≤ S3072x768.size a
  h_S3072x768 : 0 < S3072x768.numel
  shapeCasts_S3072x768_S3072x768 : S3072x768.ShapeCasts S3072x768
  inb_S768_S768_0 : ∀ a, (![0] : Fin 1 → Nat) a + S768.size a ≤ S768.size a
  h_S768 : 0 < S768.numel
  shapeCasts_S768_S1x768 : S768.ShapeCasts S1x768
  broadcasts_S1x768_S1024x768 : S1x768.Broadcasts S1024x768
  inb_S1024x768_S1024x768_0_0 : ∀ a, (![0, 0] : Fin 2 → Nat) a + S1024x768.size a ≤ S1024x768.size a
  h_S1024x768 : 0 < S1024x768.numel
  shapeCasts_S32768x768_S8x4096x768 : S32768x768.ShapeCasts S8x4096x768
  dot_S1024x8_S3072x8_S1024x3072_1_1_0_0_n_n_wf : DotDims.WF S1024x8 S3072x8 S1024x3072 [1] [1] [0] [0] [] []
  dot_S1024x3072_S3072x768_S1024x768_1_0_0_1_n_n_wf : DotDims.WF S1024x3072 S3072x768 S1024x768 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x128.size a ≤ S32768x768.size a
  hwx0_0 : ∀ i : grid0.Coords, EltTy.bits .f32 = 32 ∨ (Rect.block (s := S32768x768) S1024x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S3072x8.size a ≤ S3072x8.size a
  hwx0_1 : ∀ i : grid0.Coords, EltTy.bits .bf16 = 32 ∨ (Rect.block (s := S3072x8) S3072x8.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S3072.size a ≤ S3072.size a
  hwx0_2 : ∀ i : grid0.Coords, EltTy.bits .f32 = 32 ∨ (Rect.block (s := S3072) S3072.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S3072x768.size a ≤ S3072x768.size a
  hwx0_3 : ∀ i : grid0.Coords, EltTy.bits .bf16 = 32 ∨ (Rect.block (s := S3072x768) S3072x768.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S768.size a ≤ S768.size a
  hwx0_4 : ∀ i : grid0.Coords, EltTy.bits .f32 = 32 ∨ (Rect.block (s := S768) S768.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1024x768.size a ≤ S32768x768.size a
  hwx0_5 : ∀ i : grid0.Coords, EltTy.bits .f32 = 32 ∨ (Rect.block (s := S32768x768) S1024x768.size (cc0_transform_5 i) (hinb0_5 i)).WholeWords (EltTy.packing .f32)

variable [Facts₀]

def dot_S1024x8_S3072x8_S1024x3072_1_1_0_0_n_n : DotDims S1024x8 S3072x8 S1024x3072 where
  lhsContracting := [1]
  rhsContracting := [1]
  lhsNonContracting := [0]
  rhsNonContracting := [0]
  lhsBatch := []
  rhsBatch := []
  wf := dot_S1024x8_S3072x8_S1024x3072_1_1_0_0_n_n_wf
def dot_S1024x3072_S3072x768_S1024x768_1_0_0_1_n_n : DotDims S1024x3072 S3072x768 S1024x768 where
  lhsContracting := [1]
  rhsContracting := [0]
  lhsNonContracting := [0]
  rhsNonContracting := [1]
  lhsBatch := []
  rhsBatch := []
  wf := dot_S1024x3072_S3072x768_S1024x768_1_0_0_1_n_n_wf

abbrev win0_0 : Pipeline.Window sig grid0 :=
  Pipeline.Window.ofSpec (Memref.whole main_v0) S1024x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v5) S3072x8.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S3072.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v7) S3072x768.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg5) S768.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v8) S1024x768.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S8x4096x768 : Shape := ⟨3, ![8, 4096, 768]⟩
abbrev S8 : Shape := ⟨1, ![8]⟩
abbrev S3072x8 : Shape := ⟨2, ![3072, 8]⟩
abbrev S3072 : Shape := ⟨1, ![3072]⟩
abbrev S768x3072 : Shape := ⟨2, ![768, 3072]⟩
abbrev S768 : Shape := ⟨1, ![768]⟩
abbrev S8x4096x8 : Shape := ⟨3, ![8, 4096, 8]⟩
abbrev S1x1x8 : Shape := ⟨3, ![1, 1, 8]⟩
abbrev S8x4096x3072 : Shape := ⟨3, ![8, 4096, 3072]⟩
abbrev S1x1x3072 : Shape := ⟨3, ![1, 1, 3072]⟩
abbrev S_ : Shape := ⟨0, ![]⟩
abbrev S1x1x768 : Shape := ⟨3, ![1, 1, 768]⟩

abbrev nBuf : Space → Nat
  | .hbm => 23
  | .vmem => 0
  | .smem => 0
  | _ => 0

abbrev bufTy : (tb : Table) → Fin (tcTables nBuf tb) → BufTy
  | .hbm, ⟨0, _⟩ => ⟨S8x4096x768, .f32⟩
  | .hbm, ⟨1, _⟩ => ⟨S8, .f32⟩
  | .hbm, ⟨2, _⟩ => ⟨S3072x8, .f32⟩
  | .hbm, ⟨3, _⟩ => ⟨S3072, .f32⟩
  | .hbm, ⟨4, _⟩ => ⟨S768x3072, .f32⟩
  | .hbm, ⟨5, _⟩ => ⟨S768, .f32⟩
  | .hbm, ⟨6, _⟩ => ⟨S8x4096x8, .f32⟩
  | .hbm, ⟨7, _⟩ => ⟨S8x4096x8, .f32⟩
  | .hbm, ⟨8, _⟩ => ⟨S8, .f32⟩
  | .hbm, ⟨9, _⟩ => ⟨S1x1x8, .f32⟩
  | .hbm, ⟨10, _⟩ => ⟨S8x4096x8, .f32⟩
  | .hbm, ⟨11, _⟩ => ⟨S8x4096x8, .f32⟩
  | .hbm, ⟨12, _⟩ => ⟨S8x4096x3072, .f32⟩
  | .hbm, ⟨13, _⟩ => ⟨S1x1x3072, .f32⟩
  | .hbm, ⟨14, _⟩ => ⟨S8x4096x3072, .f32⟩
  | .hbm, ⟨15, _⟩ => ⟨S8x4096x3072, .f32⟩
  | .hbm, ⟨16, _⟩ => ⟨S_, .f32⟩
  | .hbm, ⟨17, _⟩ => ⟨S8x4096x3072, .f32⟩
  | .hbm, ⟨18, _⟩ => ⟨S8x4096x3072, .f32⟩
  | .hbm, ⟨19, _⟩ => ⟨S8x4096x768, .f32⟩
  | .hbm, ⟨20, _⟩ => ⟨S1x1x768, .f32⟩
  | .hbm, ⟨21, _⟩ => ⟨S8x4096x768, .f32⟩
  | .hbm, ⟨22, _⟩ => ⟨S8x4096x768, .f32⟩
  | _, _ => ⟨S8x4096x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_call0_cst : Ref sig .tc := ⟨.hbm, 16, rfl⟩
abbrev main_call0_v0 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩

abbrev nD : Nat := 1
abbrev τ : Topo := Topo.v7x

variable {F : FTy → Type} [FloatOps F]

class Facts₀ : Prop where
  slices_S8x4096x768_S8x4096x8_0_0_0 : S8x4096x768.Slices ![0, 0, 0] S8x4096x8
  bcast_S8_S1x1x8_2 : S8.BroadcastsInDim S1x1x8 (![2] : Fin 1 → Fin S1x1x8.rank)
  bcast_S1x1x8_S8x4096x8_0_1_2 : S1x1x8.BroadcastsInDim S8x4096x8 (![0, 1, 2] : Fin 3 → Fin S8x4096x8.rank)
  bcast_S3072_S1x1x3072_2 : S3072.BroadcastsInDim S1x1x3072 (![2] : Fin 1 → Fin S1x1x3072.rank)
  bcast_S1x1x3072_S8x4096x3072_0_1_2 : S1x1x3072.BroadcastsInDim S8x4096x3072 (![0, 1, 2] : Fin 3 → Fin S8x4096x3072.rank)
  bcast_S_S8x4096x3072 : S_.BroadcastsInDim S8x4096x3072 (![] : Fin 0 → Fin S8x4096x3072.rank)
  bcast_S768_S1x1x768_2 : S768.BroadcastsInDim S1x1x768 (![2] : Fin 1 → Fin S1x1x768.rank)
  bcast_S1x1x768_S8x4096x768_0_1_2 : S1x1x768.BroadcastsInDim S8x4096x768 (![0, 1, 2] : Fin 3 → Fin S8x4096x768.rank)
  dot_S8x4096x8_S3072x8_S8x4096x3072_2_1_01_0_n_n_wf : DotDims.WF S8x4096x8 S3072x8 S8x4096x3072 [2] [1] [0, 1] [0] [] []
  dot_S8x4096x3072_S768x3072_S8x4096x768_2_1_01_0_n_n_wf : DotDims.WF S8x4096x3072 S768x3072 S8x4096x768 [2] [1] [0, 1] [0] [] []

variable [Facts₀]

def dot_S8x4096x8_S3072x8_S8x4096x3072_2_1_01_0_n_n : DotDims S8x4096x8 S3072x8 S8x4096x3072 where
  lhsContracting := [2]
  rhsContracting := [1]
  lhsNonContracting := [0, 1]
  rhsNonContracting := [0]
  lhsBatch := []
  rhsBatch := []
  wf := dot_S8x4096x8_S3072x8_S8x4096x3072_2_1_01_0_n_n_wf
def dot_S8x4096x3072_S768x3072_S8x4096x768_2_1_01_0_n_n : DotDims S8x4096x3072 S768x3072 S8x4096x768 where
  lhsContracting := [2]
  rhsContracting := [1]
  lhsNonContracting := [0, 1]
  rhsNonContracting := [0]
  lhsBatch := []
  rhsBatch := []
  wf := dot_S8x4096x3072_S768x3072_S8x4096x768_2_1_01_0_n_n_wf

class Facts : Prop extends Facts₀ where

variable [Facts]
-- ==== Proof.TokenFfn.lean ====
/-
  The function both programs compute, one token at a time, on the extended reals.

  A token is a row (b, s) of x; only its eight leading features a_0 … a_7 are read. Its hidden unit f is
      h_f = max (∑_q (cos a_q · cos θ_q) · W1[f, q] + b1[f]) 0
  and its output feature e is
      ∑_f h_f · W2[e, f] + b2[e].
  The result array holds, at (b, s, e), output feature e of token (b, s).

  One program multiplies cos θ_q into the column q of W1 beforehand and transposes W2 beforehand ("folded" below):
  the two arrangements differ by commuting and re-associating one product of three extended reals per term, which
  holds at the infinities too, so no finiteness is needed anywhere.
-/
import Idealize.ShloMosaic.PureOps.Ideal
import Idealize.ShloMosaic.Lib.ValueIdx

noncomputable section

open scoped BigOperators

namespace Cert.TokenFfn

open Idealize.ShloMosaic Idealize.ShloMosaic.ValueIdx

/-- The float word of +0.0, kept as its word: both programs compare against the same word. -/
abbrev zero : EReal := Ideal.ofBits .f32 0x00000000#32

/-- Hidden unit f of the token with angles a. -/
def hidden (a : Fin 8 → EReal) (θ : (⟨1, ![8]⟩ : Shape).Idx → EReal) (W1 : (⟨2, ![3072, 8]⟩ : Shape).Idx → EReal)
    (b1 : (⟨1, ![3072]⟩ : Shape).Idx → EReal) (f : Fin 3072) : EReal :=
  max ((∑ q : Fin 8, (Ideal.cos (a q) * Ideal.cos (θ (ix1 q))) * W1 (ix2 f q)) + b1 (ix1 f)) zero

/-- Output feature e of the token with angles a. -/
def token (a : Fin 8 → EReal) (θ : (⟨1, ![8]⟩ : Shape).Idx → EReal) (W1 : (⟨2, ![3072, 8]⟩ : Shape).Idx → EReal)
    (b1 : (⟨1, ![3072]⟩ : Shape).Idx → EReal) (W2 : (⟨2, ![768, 3072]⟩ : Shape).Idx → EReal)
    (b2 : (⟨1, ![768]⟩ : Shape).Idx → EReal) (e : Fin 768) : EReal :=
  (∑ f : Fin 3072, hidden a θ W1 b1 f * W2 (ix2 e f)) + b2 (ix1 e)

/-- The angles of token (b, s): the eight leading features of its row of x. -/
def angles (x : (⟨3, ![8, 4096, 768]⟩ : Shape).Idx → EReal) (b : Fin 8) (s : Fin 4096) : Fin 8 → EReal :=
  fun q => x (ix3 b s (Fin.castLE (by decide) q))

/-- The whole result: at (b, s, e), output feature e of token (b, s). -/
def ffn (x : (⟨3, ![8, 4096, 768]⟩ : Shape).Idx → EReal) (θ : (⟨1, ![8]⟩ : Shape).Idx → EReal)
    (W1 : (⟨2, ![3072, 8]⟩ : Shape).Idx → EReal) (b1 : (⟨1, ![3072]⟩ : Shape).Idx → EReal)
    (W2 : (⟨2, ![768, 3072]⟩ : Shape).Idx → EReal) (b2 : (⟨1, ![768]⟩ : Shape).Idx → EReal) :
    (⟨3, ![8, 4096, 768]⟩ : Shape).Idx → EReal :=
  fun i => token (angles x (i 0) (i 1)) θ W1 b1 W2 b2 (i 2)

/-- The same feature from weights prepared beforehand: W1p[f, q] standing for W1[f, q] · cos θ_q and W2t[f, e] for
    W2[e, f]. -/
def tokenFolded (a : Fin 8 → EReal) (W1p : (⟨2, ![3072, 8]⟩ : Shape).Idx → EReal)
    (b1 : (⟨1, ![3072]⟩ : Shape).Idx → EReal) (W2t : (⟨2, ![3072, 768]⟩ : Shape).Idx → EReal)
    (b2 : (⟨1, ![768]⟩ : Shape).Idx → EReal) (e : Fin 768) : EReal :=
  (∑ f : Fin 3072, max ((∑ q : Fin 8, Ideal.cos (a q) * W1p (ix2 f q)) + b1 (ix1 f)) zero * W2t (ix2 f e)) + b2 (ix1 e)

/-- Folding cos θ into W1 and transposing W2 changes nothing: cx · (w · ct) = (cx · ct) · w on the extended reals. -/
theorem tokenFolded_eq (a : Fin 8 → EReal) (θ : (⟨1, ![8]⟩ : Shape).Idx → EReal)
    (W1 W1p : (⟨2, ![3072, 8]⟩ : Shape).Idx → EReal) (b1 : (⟨1, ![3072]⟩ : Shape).Idx → EReal)
    (W2 : (⟨2, ![768, 3072]⟩ : Shape).Idx → EReal) (W2t : (⟨2, ![3072, 768]⟩ : Shape).Idx → EReal)
    (b2 : (⟨1, ![768]⟩ : Shape).Idx → EReal)
    (h1 : ∀ (f : Fin 3072) (q : Fin 8), W1p (ix2 f q) = W1 (ix2 f q) * Ideal.cos (θ (ix1 q)))
    (h2 : ∀ (f : Fin 3072) (e : Fin 768), W2t (ix2 f e) = W2 (ix2 e f)) (e : Fin 768) :
    tokenFolded a W1p b1 W2t b2 e = token a θ W1 b1 W2 b2 e := by
  unfold tokenFolded token hidden
  congr 1
  refine Finset.sum_congr rfl fun f _ => ?_
  rw [h2 f e]
  congr 3
  refine Finset.sum_congr rfl fun q _ => ?_
  rw [h1 f q, mul_comm (W1 (ix2 f q)) (Ideal.cos (θ (ix1 q))), mul_assoc]

end Cert.TokenFfn

end
-- ==== Proof.RefIsFfn.lean ====
/-
  The reference program computes the per-token function: its last stage, read at an index (b, s, e), is output
  feature e of token (b, s).
-/
import proofs.«136746_j65481071395484_2_alg».proof.Proof.Gen.ReferenceIdeal.Read
import proofs.«136746_j65481071395484_2_alg».proof.Proof.TokenFfn

noncomputable section

open scoped BigOperators

namespace Cert.RefBridge

open Idealize.ShloMosaic Idealize.ShloMosaic.ValueIdx Cert.ReferenceIdeal Cert.ReferenceIdeal.Read

/-! ## The index maps of the stages, at an index given by its coordinates -/

/-- The second contraction reads its left operand, at output (b, s, e) and summand f, at (b, s, f). -/
theorem lidx11_ix (b : Fin 8) (s : Fin 4096) (e : Fin 768) (f : Fin 3072) :
    lidx_main_v11 (ix3 b s e) f = ix3 b s f :=
  funext fun a => Fin.ext (by match a with | ⟨0, _⟩ => rfl | ⟨1, _⟩ => rfl | ⟨2, _⟩ => rfl)

/-- The second contraction reads W2, at output (b, s, e) and summand f, at (e, f). -/
theorem ridx11_ix (b : Fin 8) (s : Fin 4096) (e : Fin 768) (f : Fin 3072) :
    ridx_main_v11 (ix3 b s e) f = ix2 e f :=
  funext fun a => Fin.ext (by match a with | ⟨0, _⟩ => rfl | ⟨1, _⟩ => rfl)

/-- The broadcast of b2 reads it, at (b, s, e), at e. -/
theorem idx12_13_ix (b : Fin 8) (s : Fin 4096) (e : Fin 768) :
    idx_main_v12 (idx_main_v13 (ix3 b s e)) = ix1 e :=
  funext fun a => Fin.ext (by match a with | ⟨0, _⟩ => rfl)

/-- The first contraction reads its left operand, at output (b, s, f) and summand q, at (b, s, q). -/
theorem lidx6_ix (b : Fin 8) (s : Fin 4096) (f : Fin 3072) (q : Fin 8) :
    lidx_main_v6 (ix3 b s f) q = ix3 b s q :=
  funext fun a => Fin.ext (by match a with | ⟨0, _⟩ => rfl | ⟨1, _⟩ => rfl | ⟨2, _⟩ => rfl)

/-- The first contraction reads W1, at output (b, s, f) and summand q, at (f, q). -/
theorem ridx6_ix (b : Fin 8) (s : Fin 4096) (f : Fin 3072) (q : Fin 8) :
    ridx_main_v6 (ix3 b s f) q = ix2 f q :=
  funext fun a => Fin.ext (by match a with | ⟨0, _⟩ => rfl | ⟨1, _⟩ => rfl)

/-- The slice of x reads it, at (b, s, q), at (b, s, q) with q taken among the 768 features. -/
theorem idx0_ix (b : Fin 8) (s : Fin 4096) (q : Fin 8) :
    idx_main_v0 (ix3 b s q) = ix3 b s (Fin.castLE (by decide : 8 ≤ 768) q) :=
  funext fun a => Fin.ext (by match a with | ⟨0, _⟩ => rfl | ⟨1, _⟩ => rfl | ⟨2, _⟩ => rfl)

/-- The broadcast of cos θ reads it, at (b, s, q), at q. -/
theorem idx3_4_ix (b : Fin 8) (s : Fin 4096) (q : Fin 8) :
    idx_main_v3 (idx_main_v4 (ix3 b s q)) = ix1 q :=
  funext fun a => Fin.ext (by match a with | ⟨0, _⟩ => rfl)

/-- The broadcast of b1 reads it, at (b, s, f), at f. -/
theorem idx7_8_ix (b : Fin 8) (s : Fin 4096) (f : Fin 3072) :
    idx_main_v7 (idx_main_v8 (ix3 b s f)) = ix1 f :=
  funext fun a => Fin.ext (by match a with | ⟨0, _⟩ => rfl)

/-- The reference program's last stage is the per-token function. -/
theorem ref_is_ffn (x0 : (⟨S8x4096x768, .f32⟩ : BufTy).Contents (Elt Ideal)) (x1 : (⟨S8, .f32⟩ : BufTy).Contents (Elt Ideal))
    (x2 : (⟨S3072x8, .f32⟩ : BufTy).Contents (Elt Ideal)) (x3 : (⟨S3072, .f32⟩ : BufTy).Contents (Elt Ideal))
    (x4 : (⟨S768x3072, .f32⟩ : BufTy).Contents (Elt Ideal)) (x5 : (⟨S768, .f32⟩ : BufTy).Contents (Elt Ideal)) :
    val_main_v14 (F := Ideal) x0 x1 x2 x3 x4 x5 = Cert.TokenFfn.ffn x0 x1 x2 x3 x4 x5 := by
  funext i
  obtain ⟨b, s, e, rfl⟩ : ∃ (b : Fin 8) (s : Fin 4096) (e : Fin 768), i = ix3 b s e := ⟨i 0, i 1, i 2, eq_ix3 i⟩
  -- at (b, s, e) the specification is output feature e of token (b, s)
  show _ = Cert.TokenFfn.token (Cert.TokenFfn.angles x0 b s) x1 x2 x3 x4 x5 e
  unfold Cert.TokenFfn.token Cert.TokenFfn.hidden Cert.TokenFfn.angles
  -- the last sum and the bias b2, read at (b, s, e)
  rw [val_main_v14_apply, val_main_v11_apply, val_main_v13_apply, val_main_v12_apply, idx12_13_ix]
  -- under the sum over f: the hidden unit f of token (b, s); under the sum over q: cos a_q · cos θ_q and W1[f, q]
  simp only [lidx11_ix, ridx11_ix, val_main_v10_apply, val_main_v9_apply, val_main_v6_apply, val_main_v8_apply,
    val_main_v7_apply, idx7_8_ix, val_main_call0_v0_apply, val_main_call0_cst_apply, lidx6_ix, ridx6_ix,
    val_main_v5_apply, val_main_v1_apply, val_main_v0_apply, idx0_ix, val_main_v4_apply, val_main_v3_apply,
    val_main_v2_apply, idx3_4_ix, Ideal.hostUnary_cos_def, Ideal.mulf_def, Ideal.addf_def, Ideal.maximumf_def,
    Ideal.ofBits_def]

end Cert.RefBridge

end
-- ==== Proof.PreparedOperands.lean ====
/-
  What the kernel's launch finds in the three arrays prepared before it, element by element:
    * the [32768, 768] array of rows is x re-laid: row r is token (r / 4096, r % 4096);
    * the [3072, 8] array is W1 with cos θ_q multiplied into column q;
    * the [3072, 768] array is W2 transposed.
  (The two changes of float format on the way are the identity on the extended reals.)
-/
import proofs.«136746_j65481071395484_2_alg».proof.Proof.Gen.KernelIdeal.Frame
import Idealize.ShloMosaic.Lib.Pipeline.Value
import Idealize.ShloMosaic.Lib.ValueIdx
import Idealize.ShloMosaic.Lib.ValueLayout
import Idealize.ShloMosaic.Lib.StableHlo.Run

noncomputable section

namespace Cert.KernelBridge

open Idealize.ShloMosaic Idealize.ShloMosaic.TcCoe Idealize.SL.Sem Idealize.ShloMosaic.ValueIdx
open Cert.KernelIdeal Cert.KernelIdeal.Gen

variable (m : (ℓ : Loc nD τ sig) → Buf (Elt Ideal) ℓ)

/-- The six argument arrays on core c, as arrays of extended reals. -/
abbrev argX (c : Dev nD) : S8x4096x768.Idx → EReal := m ((c : Thread nD τ).loc main_arg0)
abbrev argTheta (c : Dev nD) : S8.Idx → EReal := m ((c : Thread nD τ).loc main_arg1)
abbrev argW1 (c : Dev nD) : S3072x8.Idx → EReal := m ((c : Thread nD τ).loc main_arg2)
abbrev argB1 (c : Dev nD) : S3072.Idx → EReal := m ((c : Thread nD τ).loc main_arg3)
abbrev argW2 (c : Dev nD) : S768x3072.Idx → EReal := m ((c : Thread nD τ).loc main_arg4)
abbrev argB2 (c : Dev nD) : S768.Idx → EReal := m ((c : Thread nD τ).loc main_arg5)

/-- The array of rows, as a term of x. -/
theorem rows_eq (c : Dev nD) :
    (V m c main_v0 : S32768x768.Idx → EReal)
      = shapeCast S32768x768 (m ((c : Thread nD τ).loc main_arg0)) shapeCasts_S8x4096x768_S32768x768 := by
  show StableHlo.after hostOps0 (fun b => m (c, b)) (Proc.devRef .tc main_v0) = _
  after_results <;> rfl

/-- Row r of the array of rows is token (r / 4096, r % 4096) of x. -/
theorem rows_apply (c : Dev nD) (r : Fin 32768) (j : Fin 768) :
    (V m c main_v0 : S32768x768.Idx → EReal) (ix2 r j)
      = argX m c (ix3 ⟨r.val / 4096, by have := r.isLt; omega⟩ ⟨r.val % 4096, Nat.mod_lt _ (by decide)⟩ j) := by
  rw [rows_eq]
  refine shapeCast_apply _ _ _ _ ?_
  show (S8x4096x768.rowMajor _).val = (S32768x768.rowMajor _).val
  rw [Shape.rowMajor_val_three, Shape.rowMajor_val_two]
  show (r.val / 4096 * 4096 + r.val % 4096) * 768 + j.val = r.val * 768 + j.val
  rw [Nat.div_add_mod' r.val 4096]

/-- The folded first weight, as a term of W1 and θ. -/
theorem w1folded_eq (c : Dev nD) :
    (V m c main_v5 : S3072x8.Idx → EReal)
      = (truncf (F := Ideal) .bf16 (mulf (F := Ideal) (m ((c : Thread nD τ).loc main_arg2) : FVec Ideal S3072x8 .f32)
          (broadcastInDim S3072x8 ![0, 1] bcast_S1x8_S3072x8_0_1
            (broadcastInDim S1x8 ![1] bcast_S8_S1x8_1
              (Host.cos (F := Ideal) (m ((c : Thread nD τ).loc main_arg1) : FVec Ideal S8 .f32))))) bitsLt_bf16_f32
          : FVec Ideal S3072x8 .bf16) := by
  show StableHlo.after hostOps0 (fun b => m (c, b)) (Proc.devRef .tc main_v5) = _
  after_results <;> rfl

/-- Entry (f, q) of the folded first weight is W1[f, q] · cos θ_q. -/
theorem w1folded_apply (c : Dev nD) (f : Fin 3072) (q : Fin 8) :
    (V m c main_v5 : S3072x8.Idx → EReal) (ix2 f q)
      = argW1 m c (ix2 f q) * Ideal.cos (argTheta m c (ix1 q)) := by
  rw [w1folded_eq, truncf_apply, mulf_apply]
  congr 1
  rw [broadcastInDim_apply ![0, 1] bcast_S1x8_S3072x8_0_1 _ (ix2 f q) (ix2 (0 : Fin 1) q) (fun a => match a with
        | ⟨0, _⟩ => by show 0 = if (1 : Nat) = 1 then 0 else f.val; rw [if_pos rfl]
        | ⟨1, _⟩ => by show q.val = if (8 : Nat) = 1 then 0 else q.val; rw [if_neg (by decide)]),
    broadcastInDim_apply ![1] bcast_S8_S1x8_1 _ (ix2 (0 : Fin 1) q) (ix1 q) (fun a => match a with
        | ⟨0, _⟩ => by show q.val = if (8 : Nat) = 1 then 0 else q.val; rw [if_neg (by decide)])]
  rfl

/-- The transposed second weight, as a term of W2. -/
theorem w2transposed_eq (c : Dev nD) :
    (V m c main_v7 : S3072x768.Idx → EReal)
      = (truncf (F := Ideal) .bf16 (transpose S3072x768 [1, 0] (m ((c : Thread nD τ).loc main_arg4) : FVec Ideal S768x3072 .f32)
          transposes_S768x3072_S3072x768_1_0) bitsLt_bf16_f32 : FVec Ideal S3072x768 .bf16) := by
  show StableHlo.after hostOps0 (fun b => m (c, b)) (Proc.devRef .tc main_v7) = _
  after_results <;> rfl

/-- Entry (f, e) of the transposed second weight is W2[e, f]. -/
theorem w2transposed_apply (c : Dev nD) (f : Fin 3072) (e : Fin 768) :
    (V m c main_v7 : S3072x768.Idx → EReal) (ix2 f e)
      = argW2 m c (ix2 e f) := by
  rw [w2transposed_eq, truncf_apply]
  exact transpose_ix2_apply _ transposes_S768x3072_S3072x768_1_0 f e

end Cert.KernelBridge

end
-- ==== Proof.KernelPayload.lean ====
/-
  The kernel body's arithmetic at one element: row p, column e of the stored block is output feature e of the token
  whose angles are row p of the loaded x block, from the loaded (already folded) weights.

  The body forms cos of the loaded angles, multiplies the [1024, 8] block of cosines with the [3072, 8] folded first
  weights along the second axis of both (so entry (p, f) is ∑_q cos a[p, q] · W1p[f, q]), adds the first bias laid as a
  row and repeated down the rows, cuts below at the word of +0.0, multiplies the [1024, 3072] block of hidden units with
  the [3072, 768] transposed second weights (entry (p, e) is ∑_f h[p, f] · W2t[f, e]) and adds the second bias the same
  way. Both products start from a zero accumulator, and on the extended reals a change of float format is the identity.
-/
import proofs.«136746_j65481071395484_2_alg».proof.Proof.Gen.KernelIdeal.Skeleton
import proofs.«136746_j65481071395484_2_alg».proof.Proof.TokenFfn
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelBridge

open Idealize.ShloMosaic Idealize.ShloMosaic.ValueIdx Cert.KernelIdeal Cert.KernelIdeal.Gen

/-! ## The first product: rows of cosines against rows of the folded first weights -/

/-- The left operand of the first product is read on the output's row … -/
theorem first_lhs_row (i : S1024x3072.Idx) (k : dot_S1024x8_S3072x8_S1024x3072_1_1_0_0_n_n.contr.Idx) :
    (dot_S1024x8_S3072x8_S1024x3072_1_1_0_0_n_n.lhsIdx i k 0).val = (i 0).val := by
  unfold DotDims.lhsIdx
  rw [dif_neg (show ¬(0 : Fin S1024x8.rank) ∈ dot_S1024x8_S3072x8_S1024x3072_1_1_0_0_n_n.lhsBatch by decide),
    dif_pos (show (0 : Fin S1024x8.rank) ∈ dot_S1024x8_S3072x8_S1024x3072_1_1_0_0_n_n.lhsNonContracting by decide)]
  rfl

/-- … at the contracted position; -/
theorem first_lhs_col (i : S1024x3072.Idx) (k : dot_S1024x8_S3072x8_S1024x3072_1_1_0_0_n_n.contr.Idx) :
    (dot_S1024x8_S3072x8_S1024x3072_1_1_0_0_n_n.lhsIdx i k 1).val = (k ⟨0, by decide⟩).val :=
  dot_S1024x8_S3072x8_S1024x3072_1_1_0_0_n_n.lhsIdx_val_of_single rfl i k

/-- the right operand on the row named by the output's column … -/
theorem first_rhs_row (i : S1024x3072.Idx) (k : dot_S1024x8_S3072x8_S1024x3072_1_1_0_0_n_n.contr.Idx) :
    (dot_S1024x8_S3072x8_S1024x3072_1_1_0_0_n_n.rhsIdx i k 0).val = (i 1).val := by
  unfold DotDims.rhsIdx
  rw [dif_neg (show ¬(0 : Fin S3072x8.rank) ∈ dot_S1024x8_S3072x8_S1024x3072_1_1_0_0_n_n.rhsBatch by decide),
    dif_pos (show (0 : Fin S3072x8.rank) ∈ dot_S1024x8_S3072x8_S1024x3072_1_1_0_0_n_n.rhsNonContracting by decide)]
  rfl

/-- … at the same contracted position. -/
theorem first_rhs_col (i : S1024x3072.Idx) (k : dot_S1024x8_S3072x8_S1024x3072_1_1_0_0_n_n.contr.Idx) :
    (dot_S1024x8_S3072x8_S1024x3072_1_1_0_0_n_n.rhsIdx i k 1).val = (k ⟨0, by decide⟩).val :=
  dot_S1024x8_S3072x8_S1024x3072_1_1_0_0_n_n.rhsIdx_val_of_single rfl i k

/-- The first product into a zero accumulator: entry (p, f) is ∑_q c[p, q] · w[f, q], both operands contracted along
    their second axis. -/
theorem first_product (c : FVec Ideal S1024x8 .bf16) (w : FVec Ideal S3072x8 .bf16) (p : Fin 1024) (f : Fin 3072) :
    matmul (F := Ideal) dot_S1024x8_S3072x8_S1024x3072_1_1_0_0_n_n none c w (constant S1024x3072 .f32 0x00000000#32) (ix2 p f)
      = ∑ q : Fin 8, c (ix2 p q) * w (ix2 f q) := by
  refine (Ideal.matmul_constant_zero_apply dot_S1024x8_S3072x8_S1024x3072_1_1_0_0_n_n none c w (ix2 p f)).trans ?_
  rw [← Equiv.sum_comp (contrEquiv1 dot_S1024x8_S3072x8_S1024x3072_1_1_0_0_n_n 8 rfl rfl).symm]
  refine Finset.sum_congr rfl fun q _ => ?_
  have hq := contrEquiv1_symm_val dot_S1024x8_S3072x8_S1024x3072_1_1_0_0_n_n 8 rfl rfl q
  have el : dot_S1024x8_S3072x8_S1024x3072_1_1_0_0_n_n.lhsIdx (ix2 p f) ((contrEquiv1 dot_S1024x8_S3072x8_S1024x3072_1_1_0_0_n_n 8 rfl rfl).symm q) = ix2 p q :=
    funext fun a => Fin.ext (by
      match a with
      | ⟨0, _⟩ => exact first_lhs_row _ _
      | ⟨1, _⟩ => exact (first_lhs_col _ _).trans hq)
  have er : dot_S1024x8_S3072x8_S1024x3072_1_1_0_0_n_n.rhsIdx (ix2 p f) ((contrEquiv1 dot_S1024x8_S3072x8_S1024x3072_1_1_0_0_n_n 8 rfl rfl).symm q) = ix2 f q :=
    funext fun a => Fin.ext (by
      match a with
      | ⟨0, _⟩ => exact first_rhs_row _ _
      | ⟨1, _⟩ => exact (first_rhs_col _ _).trans hq)
  rw [el, er]

/-! ## The second product: rows of hidden units against the columns of the transposed second weights -/

/-- The left operand of the second product is read on the output's row … -/
theorem second_lhs_row (i : S1024x768.Idx) (k : dot_S1024x3072_S3072x768_S1024x768_1_0_0_1_n_n.contr.Idx) :
    (dot_S1024x3072_S3072x768_S1024x768_1_0_0_1_n_n.lhsIdx i k 0).val = (i 0).val := by
  unfold DotDims.lhsIdx
  rw [dif_neg (show ¬(0 : Fin S1024x3072.rank) ∈ dot_S1024x3072_S3072x768_S1024x768_1_0_0_1_n_n.lhsBatch by decide),
    dif_pos (show (0 : Fin S1024x3072.rank) ∈ dot_S1024x3072_S3072x768_S1024x768_1_0_0_1_n_n.lhsNonContracting by decide)]
  rfl

/-- … at the contracted position; -/
theorem second_lhs_col (i : S1024x768.Idx) (k : dot_S1024x3072_S3072x768_S1024x768_1_0_0_1_n_n.contr.Idx) :
    (dot_S1024x3072_S3072x768_S1024x768_1_0_0_1_n_n.lhsIdx i k 1).val = (k ⟨0, by decide⟩).val :=
  dot_S1024x3072_S3072x768_S1024x768_1_0_0_1_n_n.lhsIdx_val_of_single rfl i k

/-- the right operand on the row named by the contracted position … -/
theorem second_rhs_row (i : S1024x768.Idx) (k : dot_S1024x3072_S3072x768_S1024x768_1_0_0_1_n_n.contr.Idx) :
    (dot_S1024x3072_S3072x768_S1024x768_1_0_0_1_n_n.rhsIdx i k 0).val = (k ⟨0, by decide⟩).val :=
  dot_S1024x3072_S3072x768_S1024x768_1_0_0_1_n_n.rhsIdx_val_of_single rfl i k

/-- … at the output's column. -/
theorem second_rhs_col (i : S1024x768.Idx) (k : dot_S1024x3072_S3072x768_S1024x768_1_0_0_1_n_n.contr.Idx) :
    (dot_S1024x3072_S3072x768_S1024x768_1_0_0_1_n_n.rhsIdx i k 1).val = (i 1).val := by
  unfold DotDims.rhsIdx
  rw [dif_neg (show ¬(1 : Fin S3072x768.rank) ∈ dot_S1024x3072_S3072x768_S1024x768_1_0_0_1_n_n.rhsBatch by decide),
    dif_pos (show (1 : Fin S3072x768.rank) ∈ dot_S1024x3072_S3072x768_S1024x768_1_0_0_1_n_n.rhsNonContracting by decide)]
  rfl

/-- The second product into a zero accumulator: entry (p, e) is ∑_f h[p, f] · w[f, e], an ordinary matrix product. -/
theorem second_product (h : FVec Ideal S1024x3072 .bf16) (w : FVec Ideal S3072x768 .bf16) (p : Fin 1024) (e : Fin 768) :
    matmul (F := Ideal) dot_S1024x3072_S3072x768_S1024x768_1_0_0_1_n_n none h w (constant S1024x768 .f32 0x00000000#32) (ix2 p e)
      = ∑ f : Fin 3072, h (ix2 p f) * w (ix2 f e) := by
  refine (Ideal.matmul_constant_zero_apply dot_S1024x3072_S3072x768_S1024x768_1_0_0_1_n_n none h w (ix2 p e)).trans ?_
  rw [← Equiv.sum_comp (contrEquiv1 dot_S1024x3072_S3072x768_S1024x768_1_0_0_1_n_n 3072 rfl rfl).symm]
  refine Finset.sum_congr rfl fun f _ => ?_
  have hf := contrEquiv1_symm_val dot_S1024x3072_S3072x768_S1024x768_1_0_0_1_n_n 3072 rfl rfl f
  have el : dot_S1024x3072_S3072x768_S1024x768_1_0_0_1_n_n.lhsIdx (ix2 p e) ((contrEquiv1 dot_S1024x3072_S3072x768_S1024x768_1_0_0_1_n_n 3072 rfl rfl).symm f) = ix2 p f :=
    funext fun a => Fin.ext (by
      match a with
      | ⟨0, _⟩ => exact second_lhs_row _ _
      | ⟨1, _⟩ => exact (second_lhs_col _ _).trans hf)
  have er : dot_S1024x3072_S3072x768_S1024x768_1_0_0_1_n_n.rhsIdx (ix2 p e) ((contrEquiv1 dot_S1024x3072_S3072x768_S1024x768_1_0_0_1_n_n 3072 rfl rfl).symm f) = ix2 f e :=
    funext fun a => Fin.ext (by
      match a with
      | ⟨0, _⟩ => exact (second_rhs_row _ _).trans hf
      | ⟨1, _⟩ => exact second_rhs_col _ _)
  rw [el, er]

/-! ## A bias vector laid as one row and repeated down the rows -/

/-- A vector [b] re-laid as [1, b] and broadcast to [a, b] reads, at (p, c), the vector at c. -/
theorem bias_row {α : Type} {a b : ℕ} (v : (⟨1, ![b]⟩ : Shape).Idx → α)
    (h1 : (⟨1, ![b]⟩ : Shape).ShapeCasts ⟨2, ![1, b]⟩) (h2 : (⟨2, ![1, b]⟩ : Shape).Broadcasts ⟨2, ![a, b]⟩)
    (p : Fin a) (c : Fin b) :
    broadcastTo ⟨2, ![a, b]⟩ (shapeCast ⟨2, ![1, b]⟩ v h1) h2 (ix2 p c) = v (ix1 c) :=
  (broadcastTo_1b_ab_apply _ h2 p c).trans (shapeCast_a_1a_apply v h1 0 c)

/-! ## The stored block, one element at a time -/

theorem payload_apply (v0 : Vec Ideal S1024x8 .f32) (v4 : Vec Ideal S3072x8 .bf16) (v7 : Vec Ideal S3072 .f32)
    (v14 : Vec Ideal S3072x768 .bf16) (v17 : Vec Ideal S768 .f32) (p : Fin 1024) (e : Fin 768) :
    k0_pay1 (F := Ideal) v0 v4 v7 v14 v17 (ix2 p e)
      = Cert.TokenFfn.tokenFolded (fun q => v0 (ix2 p q)) v4 v7 v14 v17 e := by
  unfold k0_pay1 Cert.TokenFfn.tokenFolded
  -- the last addition: the second product plus the second bias, repeated down the rows
  refine (addf_apply _ _ _).trans ?_
  refine congrArg₂ (· + ·) ?_ (bias_row v17 _ _ p e)
  -- the second product is the sum over the hidden units
  refine (second_product _ _ p e).trans ?_
  refine Finset.sum_congr rfl fun f _ => ?_
  refine congrArg₂ (· * ·) ?_ (congrFun (shapeCast_self v14 _) (ix2 f e))
  -- hidden unit f of row p: a change of format is the identity, the maximum and the sum are pointwise
  refine (truncf_apply (ψ := .bf16) _ bitsLt_bf16_f32 (ix2 p f)).trans ?_
  refine (maximumf_apply _ _ _).trans ?_
  refine congrArg₂ max ?_ rfl
  refine (addf_apply _ _ _).trans ?_
  refine congrArg₂ (· + ·) ?_ (bias_row v7 _ _ p f)
  -- the first product is the sum over the eight angles, each operand read where it was loaded
  refine (first_product _ _ p f).trans ?_
  refine Finset.sum_congr rfl fun q _ => ?_
  refine congrArg₂ (· * ·) ?_ (congrFun (shapeCast_self v4 _) (ix2 f q))
  refine (truncf_apply (ψ := .bf16) _ bitsLt_bf16_f32 (ix2 p q)).trans ?_
  exact congrArg Ideal.cos (congrFun (shapeCast_self v0 _) (ix2 p q))

end Cert.KernelBridge

end
-- ==== Proof.RowsArray.lean ====
/-
  From blocks to the array. Grid point t works on rows 1024·t … 1024·t + 1023 of the array of rows: it loads those rows
  of the re-laid x (their first 128 columns, of which the body reads 8) and the whole of the two prepared weights and the
  two biases, and writes back a [1024, 768] block holding, at (p, e), output feature e of the token in row 1024·t + p.
  The 32 blocks tile the [32768, 768] result, so after the run row r of it holds the features of token (r / 4096, r % 4096).
-/
import proofs.«136746_j65481071395484_2_alg».proof.Proof.PreparedOperands
import proofs.«136746_j65481071395484_2_alg».proof.Proof.KernelPayload
import proofs.«136746_j65481071395484_2_alg».proof.Proof.TokenFfn

set_option maxRecDepth 16384

noncomputable section

namespace Cert.KernelBridge

open Idealize.ShloMosaic Idealize.ShloMosaic.TcCoe Idealize.SL.Sem Idealize.ShloMosaic.ValueIdx
open Idealize.ShloMosaic.Pipeline (Dat)
open Cert.KernelIdeal Cert.KernelIdeal.Gen

variable (m : (ℓ : Loc nD τ sig) → Buf (Elt Ideal) ℓ)

theorem zeros2 : (![0, 0] : Fin 2 → Nat) = fun _ => 0 := funext fun a => by fin_cases a <;> rfl
theorem zeros1 : (![0] : Fin 1 → Nat) = fun _ => 0 := funext fun a => by fin_cases a <;> rfl

/-- Output feature e of the token in row r of the array of rows. -/
def rowToken (c : Dev nD) (r : Fin 32768) (e : Fin 768) : EReal :=
  Cert.TokenFfn.token
    (Cert.TokenFfn.angles (argX m c) ⟨r.val / 4096, by have := r.isLt; omega⟩ ⟨r.val % 4096, Nat.mod_lt _ (by decide)⟩)
    (argTheta m c) (argW1 m c) (argB1 m c) (argW2 m c) (argB2 m c) e

/-- What the [32768, 768] result array ends holding. -/
def rowsResult (c : Dev nD) : S32768x768.Idx → EReal := fun i => rowToken m c (i 0) (i 1)

/-- What the body leaves at (p, e) of its output block, from the blocks it loads: the folded per-token function of row p
    of the x block. -/
theorem block_value (x0 : Vec Ideal S1024x128 .f32) (x1 : Vec Ideal S3072x8 .bf16) (x2 : Vec Ideal S3072 .f32)
    (x3 : Vec Ideal S3072x768 .bf16) (x4 : Vec Ideal S768 .f32) (j : S1024x768.Idx) (p : Fin 1024) (e : Fin 768)
    (hp : (j 0).val = p.val) (he : (j 1).val = e.val) :
    out0_5 (F := Ideal) x0 x1 x2 x3 x4 j
      = Cert.TokenFfn.tokenFolded (fun q => x0 (ix2 p (Fin.castLE (by decide) q))) x1 x2 x3 x4 e := by
  obtain rfl : j = ix2 p e := (eq_ix2 j).trans (by rw [Fin.ext hp, Fin.ext he]; rfl)
  unfold out0_5
  rw [View.canon_unit_zero zeros2, View.ld_unit_zero (S := S3072x8) zeros2, View.ld_unit_zero (S := S3072) zeros1,
    View.ld_unit_zero (S := S3072x768) zeros2, View.ld_unit_zero (S := S768) zeros1, payload_apply]
  congr 1
  funext q
  show x0 (r0_0.idx (ix2 p q)) = x0 (ix2 p (Fin.castLE _ q))
  congr 1
  funext a
  apply Fin.ext
  match a with
  | ⟨0, _⟩ => show 0 + 1 * p.val = p.val; omega
  | ⟨1, _⟩ => show 0 + 1 * q.val = q.val; omega

/-- The printed index maps over the grid: the x window and the result window sit at block row t, column 0; the weights
    and biases at block 0. -/
theorem index_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 1) = 0
    ∧ win0_3.index t (0 : Fin 2) = 0 ∧ win0_3.index t (1 : Fin 2) = 0
    ∧ win0_4.index t (0 : Fin 1) = 0
    ∧ win0_5.index t (0 : Fin 2) = t.val ∧ win0_5.index t (1 : Fin 2) = 0 :=
  (by decide +kernel : ∀ t : Fin grid0.N, _)

/-- The grid has 32 points. -/
theorem point_lt (t : Fin cfg0.N) : t.val < 32 := lt_of_lt_of_eq t.isLt N_0

/-- The x window's block at point t is rows 1024·t … 1024·t + 1023 of the array of rows (its first 128 columns). -/
theorem xblock_apply (c : Dev nD) (t : Fin cfg0.N) (p : Fin 1024) (j : Fin 128) :
    (iblk m c 0 t : Vec Ideal S1024x128 .f32) (ix2 p j)
      = (V m c main_v0 : S32768x768.Idx → EReal)
          (ix2 ⟨t.val * 1024 + p.val, by have := point_lt t; have := p.isLt; omega⟩
            ⟨j.val, by have := j.isLt; omega⟩) := by
  obtain ⟨h0, h1, -⟩ := index_facts t
  unfold iblk
  rw [View.read_apply]
  show V m c main_v0 _ = V m c main_v0 _
  congr 1
  funext a
  apply Fin.ext
  match a with
  | ⟨0, _⟩ => show win0_0.index t (0 : Fin 2) * 1024 + 1 * p.val = t.val * 1024 + p.val; rw [h0]; omega
  | ⟨1, _⟩ => show win0_0.index t (1 : Fin 2) * 128 + 1 * j.val = j.val; rw [h1]; omega

/-- The folded first weight is loaded whole at every point. -/
theorem w1block_eq (c : Dev nD) (t : Fin cfg0.N) : (iblk m c 1 t : Vec Ideal S3072x8 .bf16) = V m c main_v5 := by
  obtain ⟨-, -, h0, h1, -⟩ := index_facts t
  funext y
  unfold iblk
  rw [View.read_apply]
  show V m c main_v5 _ = V m c main_v5 y
  congr 1
  funext a
  apply Fin.ext
  match a with
  | ⟨0, _⟩ => show win0_1.index t (0 : Fin 2) * 3072 + 1 * (y 0).val = (y 0).val; rw [h0]; omega
  | ⟨1, _⟩ => show win0_1.index t (1 : Fin 2) * 8 + 1 * (y 1).val = (y 1).val; rw [h1]; omega

/-- The first bias is loaded whole at every point, and no operation before the launch wrote it. -/
theorem b1block_eq (c : Dev nD) (t : Fin cfg0.N) : (iblk m c 2 t : Vec Ideal S3072 .f32) = argB1 m c := by
  obtain ⟨-, -, -, -, h0, -⟩ := index_facts t
  funext y
  unfold iblk
  rw [View.read_apply]
  show V m c main_arg3 _ = argB1 m c y
  rw [V_main_arg3]
  show argB1 m c _ = argB1 m c y
  congr 1
  funext a
  apply Fin.ext
  match a with
  | ⟨0, _⟩ => show win0_2.index t (0 : Fin 1) * 3072 + 1 * (y 0).val = (y 0).val; rw [h0]; omega

/-- The transposed second weight is loaded whole at every point. -/
theorem w2block_eq (c : Dev nD) (t : Fin cfg0.N) : (iblk m c 3 t : Vec Ideal S3072x768 .bf16) = V m c main_v7 := by
  obtain ⟨-, -, -, -, -, h0, h1, -⟩ := index_facts t
  funext y
  unfold iblk
  rw [View.read_apply]
  show V m c main_v7 _ = V m c main_v7 y
  congr 1
  funext a
  apply Fin.ext
  match a with
  | ⟨0, _⟩ => show win0_3.index t (0 : Fin 2) * 3072 + 1 * (y 0).val = (y 0).val; rw [h0]; omega
  | ⟨1, _⟩ => show win0_3.index t (1 : Fin 2) * 768 + 1 * (y 1).val = (y 1).val; rw [h1]; omega

/-- The second bias is loaded whole at every point, and no operation before the launch wrote it. -/
theorem b2block_eq (c : Dev nD) (t : Fin cfg0.N) : (iblk m c 4 t : Vec Ideal S768 .f32) = argB2 m c := by
  obtain ⟨-, -, -, -, -, -, -, h0, -⟩ := index_facts t
  funext y
  unfold iblk
  rw [View.read_apply]
  show V m c main_arg5 _ = argB2 m c y
  rw [V_main_arg5]
  show argB2 m c _ = argB2 m c y
  congr 1
  funext a
  apply Fin.ext
  match a with
  | ⟨0, _⟩ => show win0_4.index t (0 : Fin 1) * 768 + 1 * (y 0).val = (y 0).val; rw [h0]; omega

/-- The angles the body reads in row p of the x block at point t are those of the token in row 1024·t + p. -/
theorem xblock_angles (c : Dev nD) (t : Fin cfg0.N) (p : Fin 1024) (r : Fin 32768) (hr : r.val = t.val * 1024 + p.val) :
    (fun q : Fin 8 => (iblk m c 0 t : Vec Ideal S1024x128 .f32) (ix2 p (Fin.castLE (by decide) q)))
      = Cert.TokenFfn.angles (argX m c) ⟨r.val / 4096, by have := r.isLt; omega⟩ ⟨r.val % 4096, Nat.mod_lt _ (by decide)⟩ := by
  funext q
  rw [xblock_apply]
  have e : (⟨t.val * 1024 + p.val, by have := point_lt t; have := p.isLt; omega⟩ : Fin 32768) = r :=
    Fin.ext hr.symm
  rw [e]
  exact rows_apply m c r _

/-- WHAT POINT t WRITES BACK is block t of `rowsResult`. -/
theorem flushed_eq (c : Dev nD) (t : Fin cfg0.N) :
    (dats m 0 c).flushed 5 t = ((cfg0.win 5).blk t).view.read (Elt Ideal) (rowsResult m c) := by
  obtain ⟨-, -, -, -, -, -, -, -, h50, h51⟩ := index_facts t
  show (cfg0.win 5).cut (grid0.coords t) ((dats m 0 c).after 5 t) = _
  rw [after0_5]
  funext j
  show out0_5 (iblk m c 0 t) (iblk m c 1 t) (iblk m c 2 t) (iblk m c 3 t) (iblk m c 4 t) j
    = rowsResult m c (((cfg0.win 5).blk t).view.emb j)
  have hj0 : (j 0).val < 1024 := (j 0).isLt
  have hj1 : (j 1).val < 768 := (j 1).isLt
  have ht : t.val < 32 := point_lt t
  refine (block_value (iblk m c 0 t) (iblk m c 1 t) (iblk m c 2 t) (iblk m c 3 t) (iblk m c 4 t) j
    ⟨(j 0).val, hj0⟩ ⟨(j 1).val, hj1⟩ rfl rfl).trans ?_
  rw [w1block_eq, b1block_eq, w2block_eq, b2block_eq]
  refine (Cert.TokenFfn.tokenFolded_eq _ (argTheta m c) (argW1 m c) (V m c main_v5) (argB1 m c) (argW2 m c) (V m c main_v7)
    (argB2 m c) (w1folded_apply m c) (w2transposed_apply m c) ⟨(j 1).val, hj1⟩).trans ?_
  have hemb : ((cfg0.win 5).blk t).view.emb j
      = ix2 (⟨t.val * 1024 + (j 0).val, by omega⟩ : Fin 32768) (⟨(j 1).val, hj1⟩ : Fin 768) := by
    funext a
    apply Fin.ext
    match a with
    | ⟨0, _⟩ => show win0_5.index t (0 : Fin 2) * 1024 + 1 * (j 0).val = t.val * 1024 + (j 0).val; rw [h50]; omega
    | ⟨1, _⟩ => show win0_5.index t (1 : Fin 2) * 768 + 1 * (j 1).val = (j 1).val; rw [h51]; omega
  rw [hemb]
  show _ = rowToken m c ⟨t.val * 1024 + (j 0).val, _⟩ ⟨(j 1).val, hj1⟩
  unfold rowToken
  rw [xblock_angles m c t ⟨(j 0).val, hj0⟩ ⟨t.val * 1024 + (j 0).val, by omega⟩ rfl]

/-- An index of the result array is in point t's block iff each coordinate is in the block's range on its axis. -/
theorem mem_block (t : Fin cfg0.N) (i : S32768x768.Idx) :
    i ∈ ((cfg0.win 5).blk t).view.set ↔ ∀ a : Fin 2, win0_5.index t a * S1024x768.size a ≤ (i a).val
      ∧ (i a).val < win0_5.index t a * S1024x768.size a + S1024x768.size a := by
  show i ∈ ((View.whole main_v8).slice (win0_5.rect t)).set ↔ _
  rw [View.set_slice_whole, Rect.mem_set_unit]
  exact Iff.rfl

/-- Row r lies in the block of point r / 1024: the 32 blocks tile the array. -/
theorem covered (i : S32768x768.Idx) :
    ∃ t : Fin cfg0.N, (cfg0.win 5).flush t = true ∧ i ∈ ((cfg0.win 5).blk t).view.set := by
  have hi0 : (i 0).val < 32768 := (i 0).isLt
  have hi1 : (i 1).val < 768 := (i 1).isLt
  obtain ⟨t, ht⟩ : ∃ t : Fin cfg0.N, t.val = (i 0).val / 1024 :=
    ⟨⟨(i 0).val / 1024, by rw [show cfg0.N = 32 from N_0]; omega⟩, rfl⟩
  obtain ⟨-, -, -, -, -, -, -, -, h50, h51⟩ := index_facts t
  refine ⟨t, flush0_5 t, ?_⟩
  rw [mem_block]
  intro a
  match a with
  | ⟨0, _⟩ =>
    show win0_5.index t (0 : Fin 2) * 1024 ≤ (i 0).val ∧ (i 0).val < win0_5.index t (0 : Fin 2) * 1024 + 1024
    rw [h50, ht]; omega
  | ⟨1, _⟩ =>
    show win0_5.index t (1 : Fin 2) * 768 ≤ (i 1).val ∧ (i 1).val < win0_5.index t (1 : Fin 2) * 768 + 768
    rw [h51]; omega

/-- THE RESULT ARRAY after the run: row r holds the features of the token in row r. -/
theorem rows_final (c : Dev nD) : (dats m 0 c).arrAt 5 cfg0.N = rowsResult m c :=
  (dats m 0 c).arrAt_eq_of_cover 5 (rowsResult m c) (fun t _ => flushed_eq m c t) covered

end Cert.KernelBridge

end
-- ==== Proof.KernelRun.lean ====
/-
  The kernel program's run, with its result named. After the launch the [32768, 768] array of rows is re-laid as
  [8, 4096, 768]: entry (b, s, e) reads row 4096·b + s, column e, that is, output feature e of token (b, s).
-/
import proofs.«136746_j65481071395484_2_alg».proof.Proof.RowsArray

set_option maxRecDepth 16384

noncomputable section

namespace Cert.KernelBridge

open Idealize.ShloMosaic Idealize.ShloMosaic.TcCoe Idealize.SL.Sem Idealize.ShloMosaic.ValueIdx
open Idealize.ShloMosaic.Pipeline (Dat)
open Cert.KernelIdeal Cert.KernelIdeal.Gen

variable (m : (ℓ : Loc nD τ sig) → Buf (Elt Ideal) ℓ) (ρ : Dev nD → PrngReg)

/-- Row 4096·b + s of the array of rows is token (b, s). -/
theorem rowToken_eq (c : Dev nD) (r : Fin 32768) (b : Fin 8) (s : Fin 4096) (e : Fin 768)
    (h : r.val = b.val * 4096 + s.val) :
    rowToken m c r e
      = Cert.TokenFfn.token (Cert.TokenFfn.angles (argX m c) b s) (argTheta m c) (argW1 m c) (argB1 m c) (argW2 m c)
          (argB2 m c) e := by
  unfold rowToken
  have hb : (⟨r.val / 4096, by have := r.isLt; omega⟩ : Fin 8) = b :=
    Fin.ext (by show r.val / 4096 = b.val; have := s.isLt; omega)
  have hs : (⟨r.val % 4096, Nat.mod_lt _ (by decide)⟩ : Fin 4096) = s :=
    Fin.ext (by show r.val % 4096 = s.val; have := s.isLt; omega)
  rw [hb, hs]

/-- The program's result: the per-token function of the six arguments. -/
abbrev result (c : Dev nD) : S8x4096x768.Idx → EReal :=
  Cert.TokenFfn.ffn (argX m c) (argTheta m c) (argW1 m c) (argB1 m c) (argW2 m c) (argB2 m c)

/-- What the re-laying after the launch leaves in the result buffer. -/
theorem result_eq (c : Dev nD) :
    (Pipeline.afterTail₀ cfgs (dats m) 0 (V0 m) [hostOps1] c main_v9 : S8x4096x768.Idx → EReal) = result m c := by
  have hw : (Pipeline.withArrays (cfgs 0).spec c (V0 m c) (fun w => (dats m 0 c).arrAt w (cfgs 0).N)
      (Proc.devRef .tc main_v8) : S32768x768.Idx → EReal) = rowsResult m c :=
    (Pipeline.withArrays_arr spec0 launch0.win.arr_inj c _ _ 5).trans (rows_final m c)
  unfold Pipeline.afterTail₀
  show StableHlo.after hostOps1 _ (Proc.devRef .tc main_v9) = _
  after_results
  funext i
  obtain ⟨b, s, e, rfl⟩ : ∃ (b : Fin 8) (s : Fin 4096) (e : Fin 768), i = ix3 b s e := ⟨i 0, i 1, i 2, eq_ix3 i⟩
  show shapeCast S8x4096x768 (Pipeline.withArrays (cfgs 0).spec c (V0 m c) (fun w => (dats m 0 c).arrAt w (cfgs 0).N)
      (Proc.devRef .tc main_v8)) shapeCasts_S32768x768_S8x4096x768 (ix3 b s e) = _
  rw [hw]
  have hb := b.isLt
  have hs := s.isLt
  refine (shapeCast_apply (rowsResult m c) shapeCasts_S32768x768_S8x4096x768 (ix3 b s e)
    (ix2 (⟨b.val * 4096 + s.val, by omega⟩ : Fin 32768) e) ?_).trans ?_
  · show (S32768x768.rowMajor _).val = (S8x4096x768.rowMajor _).val
    rw [Shape.rowMajor_val_three, Shape.rowMajor_val_two]
    rfl
  · exact rowToken_eq m c ⟨b.val * 4096 + s.val, by omega⟩ b s e rfl

/-- Every weakly fair execution of the kernel program terminates with the result buffer at `result` and the six
    arguments unchanged. -/
theorem run : θ_run defs (onTc (τ := τ) (main (F := Ideal))) ⟨m, fun _ => 0, ρ⟩ (fun r => ∀ c : Dev nD,
      r.2.mem ((c.tc : Thread nD τ).loc main_v9) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c =>
    ⟨((h c).2 main_v9 (Pipeline.mem_restRefs_of main_v9 (by decide) (by decide))).trans (result_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).1 2).trans (((dats m 0 c).arrAt_in 2 rfl _).trans ((A_eq m c 2).trans (V_main_arg3 m c))),
      ((h c).2 main_arg4 (Pipeline.mem_restRefs_of main_arg4 (by decide) (by decide))).trans (W_main_arg4 m (dats m) c),
      ((h c).1 4).trans (((dats m 0 c).arrAt_in 4 rfl _).trans ((A_eq m c 4).trans (V_main_arg5 m c)))⟩)
    (run_main m ρ)

end Cert.KernelBridge

end
-- ==== Proof.lean ====
/-
  A per-token feed-forward layer, computed two ways, gives the same result on the extended reals.

  Every token (b, s) of x : [8, 4096, 768] contributes only its eight leading features a_0 … a_7. Its hidden unit f is
      h_f = max (∑_q (cos a_q · cos θ_q) · W1[f, q] + b1[f]) 0,
  and its output feature e is ∑_f h_f · W2[e, f] + b2[e] (Proof/TokenFfn.lean).

  The reference program computes exactly this, operation by operation (Proof/RefIsFfn.lean, over its generated run and
  read-at-an-index lemmas). The kernel program re-lays x as 32768 rows, multiplies cos θ_q into column q of W1 and
  transposes W2 beforehand (Proof/PreparedOperands.lean), works through the rows 1024 at a time, each grid point
  forming the two matrix products of its block of rows against the whole prepared weights (Proof/KernelPayload.lean), and
  re-lays the [32768, 768] result as [8, 4096, 768]; the 32 blocks tile the result (Proof/RowsArray.lean,
  Proof/KernelRun.lean). The two arrangements differ by cx · (w · ct) = (cx · ct) · w, which holds for all extended
  reals, so the precondition (finite inputs) is never used for the values. The three frames are the generated ones;
  the idealization rewrote nothing, so its conjunct is trivial.
-/
import proofs.«136746_j65481071395484_2_alg».proof.Defs
import proofs.«136746_j65481071395484_2_alg».proof.Proof.Gen.Kernel
import proofs.«136746_j65481071395484_2_alg».proof.Proof.Gen.Kernel.Skeleton
import proofs.«136746_j65481071395484_2_alg».proof.Proof.Gen.Kernel.Launch
import proofs.«136746_j65481071395484_2_alg».proof.Proof.Gen.Kernel.Points
import proofs.«136746_j65481071395484_2_alg».proof.Proof.Gen.Kernel.Frame
import proofs.«136746_j65481071395484_2_alg».proof.Proof.Gen.KernelIdeal
import proofs.«136746_j65481071395484_2_alg».proof.Proof.Gen.KernelIdeal.Skeleton
import proofs.«136746_j65481071395484_2_alg».proof.Proof.Gen.KernelIdeal.Launch
import proofs.«136746_j65481071395484_2_alg».proof.Proof.Gen.KernelIdeal.Points
import proofs.«136746_j65481071395484_2_alg».proof.Proof.Gen.KernelIdeal.Frame
import proofs.«136746_j65481071395484_2_alg».proof.Proof.Gen.ReferenceIdeal
import proofs.«136746_j65481071395484_2_alg».proof.Proof.Gen.ReferenceIdeal.Run
import proofs.«136746_j65481071395484_2_alg».proof.Proof.Gen.ReferenceIdeal.Read
import proofs.«136746_j65481071395484_2_alg».proof.Proof.Gen.Pre_finite_inputs
import proofs.«136746_j65481071395484_2_alg».proof.Proof.TokenFfn
import proofs.«136746_j65481071395484_2_alg».proof.Proof.RefIsFfn
import proofs.«136746_j65481071395484_2_alg».proof.Proof.KernelRun
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference has no launch: its frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Both programs end with the per-token function of the (agreeing) arguments in their result buffers. -/
theorem algebraic : Cert.algebraic_KernelIdeal_ReferenceIdeal := by
  intro m ρ m' ρ' _ hagree
  refine ⟨fun c => Cert.KernelBridge.result m c, Cert.KernelBridge.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v14_eq, Cert.RefBridge.ref_is_ffn, (hagree c).1, (hagree c).2.1, (hagree c).2.2.1,
    (hagree c).2.2.2.1, (hagree c).2.2.2.2.1, (hagree c).2.2.2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
